-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x10000 : Shape := ⟨2, ![4096, 10000]⟩
abbrev S10000x64 : Shape := ⟨2, ![10000, 64]⟩
abbrev S_ : Shape := ⟨0, ![]⟩

class Facts : Prop where
  bcast_S_S4096x10000 : S_.BroadcastsInDim S4096x10000 (![] : Fin 0 → Fin S4096x10000.rank)
  reducesTo_S4096x10000_S_d0_1 : S4096x10000.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_

variable [Facts]

def fn {F : FTy → Type} [FloatOps F] (main_arg0 : FVec F S4096x10000 .f32) (main_arg1 : FVec F S10000x64 .f32) : IVec S_ 1 :=
  let main_v0 : FVec F S4096x10000 .f32 := Host.absf main_arg0
  let main_cst : FVec F S_ .f32 := constant S_ .f32 0x7F800000#32
  let main_v1 : FVec F S4096x10000 .f32 := broadcastInDim S4096x10000 ![] bcast_S_S4096x10000 main_cst
  let main_v2 : IVec S4096x10000 1 := cmpf .olt main_v0 main_v1
  let main_c : IVec S_ 1 := constantI S_ 1 1#1
  let main_v3 : IVec S_ 1 := (fun x v => Host.reduce IntOp.andi x v reducesTo_S4096x10000_S_d0_1 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  main_v8
-- ==== Kernel.lean ====
abbrev S4096x10000 : Shape := ⟨2, ![4096, 10000]⟩
abbrev S10000x64 : Shape := ⟨2, ![10000, 64]⟩
abbrev S1x10000 : Shape := ⟨2, ![1, 10000]⟩
abbrev S128x10000 : Shape := ⟨2, ![128, 10000]⟩
abbrev S10000 : Shape := ⟨1, ![10000]⟩
abbrev S1x64 : Shape := ⟨2, ![1, 64]⟩
abbrev S64 : Shape := ⟨1, ![64]⟩
abbrev S_ : Shape := ⟨0, ![]⟩

abbrev nBuf : Space → Nat
  | .hbm => 19
  | .vmem => 4
  | .smem => 0
  | _ => 0

abbrev bufTy : (tb : Table) → Fin (tcTables nBuf tb) → BufTy
  | .hbm, ⟨0, _⟩ => ⟨S4096x10000, .f32⟩
  | .hbm, ⟨1, _⟩ => ⟨S10000x64, .f32⟩
  | .hbm, ⟨2, _⟩ => ⟨S1x10000, .f32⟩
  | .hbm, ⟨3, _⟩ => ⟨S1x10000, .f32⟩
  | .hbm, ⟨4, _⟩ => ⟨S1x64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S10000x64, .f32⟩
  | .hbm, ⟨10, _⟩ => ⟨S_, .f32⟩
  | .hbm, ⟨11, _⟩ => ⟨S10000, .f32⟩
  | .hbm, ⟨12, _⟩ => ⟨S10000, .f32⟩
  | .hbm, ⟨13, _⟩ => ⟨S10000, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S128x10000, .f32⟩
  | .local _ .vmem, ⟨1, _⟩ => ⟨S128x10000, .f32⟩
  | .local _ .vmem, ⟨2, _⟩ => ⟨S1x10000, .f32⟩
  | .local _ .vmem, ⟨3, _⟩ => ⟨S1x10000, .f32⟩
  | _, _ => ⟨S4096x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x10000_S1x10000_0_0 : ∀ a, (![0, 0] : Fin 2 → Nat) a + S1x10000.size a ≤ S1x10000.size a
  h_S1x10000 : 0 < S1x10000.numel
  inb_S128x10000_S128x10000_0_0 : ∀ a, (![0, 0] : Fin 2 → Nat) a + S128x10000.size a ≤ S128x10000.size a
  h_S128x10000 : 0 < S128x10000.numel
  shapeCasts_S1x10000_S1x10000 : S1x10000.ShapeCasts S1x10000
  reduces_S128x10000_S10000 : S128x10000.Reduces [0] S10000
  shapeCasts_S10000_S1x10000 : S10000.ShapeCasts S1x10000
  shapeCasts_S1x64_S64 : S1x64.ShapeCasts S64
  reducesTo_S64_S_d0 : S64.ReducesTo [0] S_
  h_S_ : 0 < S_.numel
  reducesTo_S10000x64_S10000_d1 : S10000x64.ReducesTo [1] S10000
  shapeCasts_S1x10000_S10000 : S1x10000.ShapeCasts S10000
  reducesTo_S10000_S_d0 : S10000.ReducesTo [0] S_
  dot_S1x10000_S10000x64_S1x64_1_0_0_1_n_n_wf : DotDims.WF S1x10000 S10000x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S4096x10000.size a
  hwx0_0 : ∀ i : grid0.Coords, EltTy.bits .f32 = 32 ∨ (Rect.block (s := S4096x10000) S128x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x10000.size a ≤ S1x10000.size a
  hwx0_1 : ∀ i : grid0.Coords, EltTy.bits .f32 = 32 ∨ (Rect.block (s := S1x10000) S1x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10000.size a ≤ S1x10000.size a
  hwx0_2 : ∀ i : grid0.Coords, EltTy.bits .f32 = 32 ∨ (Rect.block (s := S1x10000) S1x10000.size (cc0_transform_2 i) (hinb0_2 i)).WholeWords (EltTy.packing .f32)

variable [Facts₀]

def dot_S1x10000_S10000x64_S1x64_1_0_0_1_n_n : DotDims S1x10000 S10000x64 S1x64 where
  lhsContracting := [1]
  rhsContracting := [0]
  lhsNonContracting := [0]
  rhsNonContracting := [1]
  lhsBatch := []
  rhsBatch := []
  wf := dot_S1x10000_S10000x64_S1x64_1_0_0_1_n_n_wf

abbrev win0_0 : Pipeline.Window sig grid0 :=
  Pipeline.Window.ofSpec (Memref.whole main_arg0) S128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x10000.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x10000.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x10000 : Shape := ⟨2, ![4096, 10000]⟩
abbrev S10000x64 : Shape := ⟨2, ![10000, 64]⟩
abbrev S4096x64 : Shape := ⟨2, ![4096, 64]⟩
abbrev S_ : Shape := ⟨0, ![]⟩
abbrev S64 : Shape := ⟨1, ![64]⟩

abbrev nBuf : Space → Nat
  | .hbm => 16
  | .vmem => 0
  | .smem => 0
  | _ => 0

abbrev bufTy : (tb : Table) → Fin (tcTables nBuf tb) → BufTy
  | .hbm, ⟨0, _⟩ => ⟨S4096x10000, .f32⟩
  | .hbm, ⟨1, _⟩ => ⟨S10000x64, .f32⟩
  | .hbm, ⟨2, _⟩ => ⟨S4096x64, .f32⟩
  | .hbm, ⟨3, _⟩ => ⟨S_, .f32⟩
  | .hbm, ⟨4, _⟩ => ⟨S64, .f32⟩
  | .hbm, ⟨5, _⟩ => ⟨S4096x10000, .f32⟩
  | .hbm, ⟨6, _⟩ => ⟨S10000x64, .f32⟩
  | .hbm, ⟨7, _⟩ => ⟨S4096x64, .f32⟩
  | .hbm, ⟨8, _⟩ => ⟨S_, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | _, _ => ⟨S4096x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  reducesTo_S4096x64_S64_d0 : S4096x64.ReducesTo [0] S64
  h_S_ : 0 < S_.numel
  reducesTo_S4096x64_S_d0_1 : S4096x64.ReducesTo [0, 1] S_
  reducesTo_S64_S_d0 : S64.ReducesTo [0] S_
  dot_S4096x10000_S10000x64_S4096x64_1_0_0_1_n_n_wf : DotDims.WF S4096x10000 S10000x64 S4096x64 [1] [0] [0] [1] [] []

variable [Facts₀]

def dot_S4096x10000_S10000x64_S4096x64_1_0_0_1_n_n : DotDims S4096x10000 S10000x64 S4096x64 where
  lhsContracting := [1]
  rhsContracting := [0]
  lhsNonContracting := [0]
  rhsNonContracting := [1]
  lhsBatch := []
  rhsBatch := []
  wf := dot_S4096x10000_S10000x64_S4096x64_1_0_0_1_n_n_wf

class Facts : Prop extends Facts₀ where

variable [Facts]
-- ==== Proof.KernelCases.lean ====
/-
  What one run of the body leaves in the two accumulator blocks, as pure terms of what the body loaded.

  The body keeps two [1,10000] blocks across the 32 grid points: the column sums of the rows seen so far and the
  column sums of their squares. At the first point it stores the zero block into each, reads it back, and adds
  the point's 128 rows (summed down the rows; for the second block, squared first). At every later point it adds
  the point's rows to what the point before left. So after one run the first block holds
  `acc + (sum over the 128 rows of x)` and the second `acc + (sum over the 128 rows of x*x)`, with `acc` the
  zero block at the first point and the previous contents afterwards — the two payload terms below.
-/
import proofs.«107223_j30631706755974_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

/-- The offset of every load and store of the body: the origin of its block. -/
theorem origin : (![0, 0] : Fin 2 → Nat) = fun _ => 0 := funext fun a => by fin_cases a <;> rfl

/-- A later point, column sums: the previous contents plus the point's rows summed down the rows. -/
theorem later_sum (c : Dev nD) (i : grid0.Coords) (a1 : Memref sig .tc .vmem S128x10000 .f32) (h1 : a1.IsWhole)
    (a2 : Memref sig .tc .vmem S1x10000 .f32) (h2 : a2.IsWhole) (a3 : Memref sig .tc .vmem S1x10000 .f32) (h3 : a3.IsWhole)
    (hc : ¬cond0_0 i) (x : Vec F S128x10000 .f32) (xo1 xo2 : Vec F S1x10000 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  rw [View.canon_unit_zero origin]
  simp only [View.readAt_eq_ld, h1.read_unread, h2.read_unread, View.ld_unit_zero (S := S128x10000) origin,
    View.ld_unit_zero (S := S1x10000) origin]

/-- A later point, column sums of squares: the previous contents plus the point's squared rows summed down the rows. -/
theorem later_sumsq (c : Dev nD) (i : grid0.Coords) (a1 : Memref sig .tc .vmem S128x10000 .f32) (h1 : a1.IsWhole)
    (a2 : Memref sig .tc .vmem S1x10000 .f32) (h2 : a2.IsWhole) (a3 : Memref sig .tc .vmem S1x10000 .f32) (h3 : a3.IsWhole)
    (hc : ¬cond0_0 i) (x : Vec F S128x10000 .f32) (xo1 xo2 : Vec F S1x10000 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  rw [View.canon_unit_zero origin]
  simp only [View.readAt_eq_ld, h1.read_unread, h3.read_unread, View.ld_unit_zero (S := S128x10000) origin,
    View.ld_unit_zero (S := S1x10000) origin]

/-- The first point, column sums: the zero block, read back, plus the point's rows summed down the rows. -/
theorem first_sum (c : Dev nD) (i : grid0.Coords) (a1 : Memref sig .tc .vmem S128x10000 .f32) (h1 : a1.IsWhole)
    (a2 : Memref sig .tc .vmem S1x10000 .f32) (h2 : a2.IsWhole) (a3 : Memref sig .tc .vmem S1x10000 .f32) (h3 : a3.IsWhole)
    (hc : cond0_0 i) (x : Vec F S128x10000 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x10000) origin, View.readCov_unit_zero (S := S1x10000) _ origin]
  simp only [View.readAt_eq_ld, h1.read_unread, View.ld_unit_zero (S := S128x10000) origin]

/-- The first point, column sums of squares: the zero block, read back, plus the point's squared rows summed down the rows. -/
theorem first_sumsq (c : Dev nD) (i : grid0.Coords) (a1 : Memref sig .tc .vmem S128x10000 .f32) (h1 : a1.IsWhole)
    (a2 : Memref sig .tc .vmem S1x10000 .f32) (h2 : a2.IsWhole) (a3 : Memref sig .tc .vmem S1x10000 .f32) (h3 : a3.IsWhole)
    (hc : cond0_0 i) (x : Vec F S128x10000 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x10000) origin, View.readCov_unit_zero (S := S1x10000) _ origin]
  simp only [View.readAt_eq_ld, h1.read_unread, View.ld_unit_zero (S := S128x10000) origin]

end Cert.KernelIdeal.Cases

end
-- ==== Proof.KernelPayloads.lean ====
/-
  The body's two accumulation steps read at one column, over the extended reals.

  One run of the body turns the [1,10000] block `acc` into `acc + (the point's 128 rows summed down the rows)`,
  and the second block into `acc + (the squares of those rows summed down the rows)`. Read at column `k` these are
  `acc k + ∑ r, x r k` and `acc k + ∑ r, x r k * x r k` with `r` over the 128 rows of the block; the zero block the
  first point stores is `0` at every column.
-/
import proofs.«107223_j30631706755974_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.Payloads

open Cert.KernelIdeal Cert.KernelIdeal.Gen Idealize.ShloMosaic.ValueIdx

/-- A [128,10000] block summed down its rows, at column `k`: the sum of the column's 128 entries. -/
theorem rows_sum (src : FVec Ideal S128x10000 .f32) (hacc : (0x00000000#32 : BitVec 32) = 0x00000000#32) (k : Fin 10000) :
    multiReduction .add [0] S10000 src 0x00000000#32 reduces_S128x10000_S10000 (.inl rfl) hacc (ix1 k)
      = ∑ r : Fin 128, src (ix2 r k) := by
  refine (Ideal.multiReduction_add_single src 0x00000000#32 reduces_S128x10000_S10000 (.inl rfl) hacc (ix1 k)).trans ?_
  refine Finset.sum_congr rfl fun r _ => congrArg src ?_
  funext a
  match a with
  | ⟨0, _⟩ => rfl
  | ⟨1, _⟩ => rfl

/-- The column-sum step at column `k`: what was there plus the block's column `k` summed. -/
theorem colsum_step (x : FVec Ideal S128x10000 .f32) (acc : FVec Ideal S1x10000 .f32) (u : Fin 1) (k : Fin 10000) :
    k0_pay3 (F := Ideal) x acc (ix2 u k) = acc (ix2 u k) + ∑ r : Fin 128, x (ix2 r k) := by
  unfold k0_pay3
  refine (addf_apply _ _ _).trans ?_
  refine congrArg₂ (· + ·) ?_ ?_
  · exact congrFun (shapeCast_self acc _) _
  · exact (shapeCast_a_1a_apply _ _ u k).trans (rows_sum x rfl k)

/-- The sum-of-squares step at column `k`: what was there plus the squares of the block's column `k` summed. -/
theorem colsumsq_step (x : FVec Ideal S128x10000 .f32) (acc : FVec Ideal S1x10000 .f32) (u : Fin 1) (k : Fin 10000) :
    k0_pay4 (F := Ideal) x acc (ix2 u k) = acc (ix2 u k) + ∑ r : Fin 128, x (ix2 r k) * x (ix2 r k) := by
  unfold k0_pay4
  refine (addf_apply _ _ _).trans ?_
  refine congrArg₂ (· + ·) ?_ ?_
  · exact congrFun (shapeCast_self acc _) _
  · exact (shapeCast_a_1a_apply _ _ u k).trans (rows_sum (mulf x x) rfl k)

/-- The zero block stored into the column sums at the first point is zero everywhere. -/
theorem zero_block_sum (j : S1x10000.Idx) : k0_pay1 (F := Ideal) j = 0 := by
  unfold k0_pay1
  exact Ideal.ofBits_zero_f32

/-- The zero block stored into the sums of squares at the first point is zero everywhere. -/
theorem zero_block_sumsq (j : S1x10000.Idx) : k0_pay2 (F := Ideal) j = 0 := by
  unfold k0_pay2
  exact Ideal.ofBits_zero_f32

end Cert.KernelIdeal.Payloads

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.KernelAccum.lean ====
/-
  What the two accumulator blocks hold after each grid point.

  Point `t` of the 32 stages rows 128·t … 128·t + 127 of the [4096,10000] input. The two [1,10000] blocks are
  never written back before the last point, so after point `n` the first holds, at column `k`,
  `0 + ∑_{t ≤ n} ∑_{r < 128} X[128 t + r, k]` and the second the same with every entry squared: by induction
  on the point, from the two steps of one run of the body.
-/
import proofs.«107223_j30631706755974_2_alg».proof.Proof.KernelCases
import proofs.«107223_j30631706755974_2_alg».proof.Proof.KernelPayloads
import proofs.«107223_j30631706755974_2_alg».proof.Proof.LibSumBlocks

noncomputable section

open Idealize.ShloMosaic Idealize.ShloMosaic.TcCoe Idealize.SL.Sem
open Idealize.ShloMosaic.Pipeline (Dat)

namespace Cert.KernelIdeal.Accum

open Cert.KernelIdeal Cert.KernelIdeal.Gen Idealize.ShloMosaic.ValueIdx Cert.Lib.SumBlocks

section AnyValues

variable {F : FTy → Type} [FloatOps F]
variable (m : (ℓ : Loc nD τ sig) → Buf (Elt F) ℓ)

/-- The 128 rows of the input staged at point `t`. -/
def rowsAt (c : Dev nD) (t : Fin cfg0.N) : Vec F S128x10000 .f32 := iblk m c 0 t

/-- The column-sum block after point `n`: from the zero block, each point adding its rows summed down the rows. -/
def sums (c : Dev nD) : (n : ℕ) → n < cfg0.N → Vec F S1x10000 .f32
  | 0, h => k0_pay3 (rowsAt m c ⟨0, h⟩) (k0_pay1 (F := F))
  | n + 1, h => k0_pay3 (rowsAt m c ⟨n + 1, h⟩) (sums c n (Nat.lt_of_succ_lt h))

/-- The sum-of-squares block after point `n`: from the zero block, each point adding its squared rows summed down the rows. -/
def sumsqs (c : Dev nD) : (n : ℕ) → n < cfg0.N → Vec F S1x10000 .f32
  | 0, h => k0_pay4 (rowsAt m c ⟨0, h⟩) (k0_pay2 (F := F))
  | n + 1, h => k0_pay4 (rowsAt m c ⟨n + 1, h⟩) (sumsqs c n (Nat.lt_of_succ_lt h))

/-- What the two staging buffers hold after point `n` are those two chains: by induction on the point. -/
theorem outsAt_eq (c : Dev nD) : ∀ (n : ℕ) (h : n < cfg0.N), outsAt0 m c n h = (sums m c n h, sumsqs m c n h)
  | 0, h => by
    rw [outsAt0_A m c ⟨0, h⟩ rfl, Cases.first_sum, Cases.first_sumsq]
    rfl
  | n + 1, h => by
    have hN : cfg0.N = 32 := N_0
    have hB : ¬(⟨n + 1, h⟩ : Fin cfg0.N).val % 32 = 0 := by dsimp only; omega
    rw [outsAt0_B m c ⟨n + 1, h⟩ hB, Cases.later_sum, Cases.later_sumsq]
    show (k0_pay3 _ (outsAt0 m c n _).1, k0_pay4 _ (outsAt0 m c n _).2) = (k0_pay3 _ (sums m c n _), k0_pay4 _ (sumsqs m c n _))
    rw [outsAt_eq c n]
    rfl

end AnyValues

variable (m : (ℓ : Loc nD τ sig) → Buf (Elt Ideal) ℓ)

/-- Column `k` of the input matrix as the region finds it. -/
def col (c : Dev nD) (k : Fin 10000) : Fin 4096 → EReal := fun b => V m c main_arg0 (ix2 b k)

/-- Block `t` of the input starts at row `128 t` and spans every column. -/
theorem block_origin : ∀ t : Fin cfg0.N, win0_0.index t 0 = t.val ∧ win0_0.index t 1 = 0 :=
  (by decide +kernel : ∀ t : Fin grid0.N, win0_0.index t 0 = t.val ∧ win0_0.index t 1 = 0)

/-- Entry `(r, k)` of the rows staged at point `t` is entry `(128 t + r, k)` of the input. -/
theorem rowsAt_entry (c : Dev nD) (t : Fin cfg0.N) (r : Fin 128) (k : Fin 10000) :
    rowsAt m c t (ix2 r k) = onNat (col m c k) (t.val * 128 + r.val) := by
  have hN : t.val < 32 := lt_of_lt_of_eq t.isLt N_0
  rw [onNat_of_lt _ _ (by omega)]
  unfold rowsAt iblk col
  rw [View.read_apply]
  show V m c main_arg0 _ = V m c main_arg0 _
  refine congrArg _ ?_
  funext a
  apply Fin.ext
  match a with
  | ⟨0, _⟩ => show win0_0.index t 0 * 128 + 1 * r.val = t.val * 128 + r.val; rw [(block_origin t).1]; omega
  | ⟨1, _⟩ => show win0_0.index t 1 * 10000 + 1 * k.val = k.val; rw [(block_origin t).2]; omega

/-- The sum of column `k` over the 128 rows of block `t`. -/
def blockSum (c : Dev nD) (k : Fin 10000) (t : ℕ) : EReal := ∑ q : Fin 128, onNat (col m c k) (t * 128 + q.val)

/-- The sum of the squares of column `k` over the 128 rows of block `t`. -/
def blockSumSq (c : Dev nD) (k : Fin 10000) (t : ℕ) : EReal :=
  ∑ q : Fin 128, onNat (col m c k) (t * 128 + q.val) * onNat (col m c k) (t * 128 + q.val)

/-- After point `n`, at column `k`, the column-sum block holds the first `n + 1` blocks' column sums, added from zero. -/
theorem sums_entry (c : Dev nD) : ∀ (n : ℕ) (h : n < cfg0.N) (u : Fin 1) (k : Fin 10000),
    sums m c n h (ix2 u k) = 0 + ∑ t ∈ Finset.range (n + 1), blockSum m c k t
  | 0, h, u, k => by
    refine (Payloads.colsum_step (rowsAt m c ⟨0, h⟩) (k0_pay1 (F := Ideal)) u k).trans ?_
    rw [Payloads.zero_block_sum, Finset.sum_range_one]
    exact congrArg (0 + ·) (Finset.sum_congr rfl fun r _ => rowsAt_entry m c ⟨0, h⟩ r k)
  | n + 1, h, u, k => by
    refine (Payloads.colsum_step (rowsAt m c ⟨n + 1, h⟩) (sums m c n (Nat.lt_of_succ_lt h)) u k).trans ?_
    rw [sums_entry c n (Nat.lt_of_succ_lt h) u k, Finset.sum_range_succ _ (n + 1), add_assoc]
    exact congrArg (fun z => 0 + (_ + z)) (Finset.sum_congr rfl fun r _ => rowsAt_entry m c ⟨n + 1, h⟩ r k)

/-- After point `n`, at column `k`, the sum-of-squares block holds the first `n + 1` blocks' sums of squares, added from zero. -/
theorem sumsqs_entry (c : Dev nD) : ∀ (n : ℕ) (h : n < cfg0.N) (u : Fin 1) (k : Fin 10000),
    sumsqs m c n h (ix2 u k) = 0 + ∑ t ∈ Finset.range (n + 1), blockSumSq m c k t
  | 0, h, u, k => by
    refine (Payloads.colsumsq_step (rowsAt m c ⟨0, h⟩) (k0_pay2 (F := Ideal)) u k).trans ?_
    rw [Payloads.zero_block_sumsq, Finset.sum_range_one]
    exact congrArg (0 + ·) (Finset.sum_congr rfl fun r _ => by rw [rowsAt_entry m c ⟨0, h⟩ r k])
  | n + 1, h, u, k => by
    refine (Payloads.colsumsq_step (rowsAt m c ⟨n + 1, h⟩) (sumsqs m c n (Nat.lt_of_succ_lt h)) u k).trans ?_
    rw [sumsqs_entry c n (Nat.lt_of_succ_lt h) u k, Finset.sum_range_succ _ (n + 1), add_assoc]
    exact congrArg (fun z => 0 + (_ + z)) (Finset.sum_congr rfl fun r _ => by rw [rowsAt_entry m c ⟨n + 1, h⟩ r k])

/-- After the last point the column-sum block holds, at column `k`, the whole column summed from zero. -/
theorem sums_last (c : Dev nD) (h : 31 < cfg0.N) (u : Fin 1) (k : Fin 10000) :
    sums m c 31 h (ix2 u k) = 0 + ∑ b : Fin 4096, col m c k b := by
  rw [sums_entry m c 31 h u k, sum_fin_blocks 32 128 rfl (col m c k)]
  rfl

/-- After the last point the sum-of-squares block holds, at column `k`, the whole column's squares summed from zero. -/
theorem sumsqs_last (c : Dev nD) (h : 31 < cfg0.N) (u : Fin 1) (k : Fin 10000) :
    sumsqs m c 31 h (ix2 u k) = 0 + ∑ b : Fin 4096, col m c k b * col m c k b := by
  rw [sumsqs_entry m c 31 h u k, sum_fin_blocks 32 128 rfl (fun b => col m c k b * col m c k b)]
  refine congrArg (0 + ·) (Finset.sum_congr rfl fun t ht => Finset.sum_congr rfl fun q _ => ?_)
  have ht' : t < 32 := Finset.mem_range.mp ht
  have hq : t * 128 + q.val < 4096 := by have := q.isLt; omega
  rw [onNat_of_lt _ _ hq, onNat_of_lt _ _ hq]

end Cert.KernelIdeal.Accum

end
-- ==== Proof.KernelRegion.lean ====
/-
  The two arrays the kernel call returns.

  Each result is a [1,10000] array whose one block is the whole array, written back once, after the last of the 32
  points. So after the call the first array is the column-sum block as the last point leaves it, and the second the
  sum-of-squares block.
-/
import proofs.«107223_j30631706755974_2_alg».proof.Proof.KernelAccum

noncomputable section

open Idealize.ShloMosaic Idealize.ShloMosaic.TcCoe Idealize.SL.Sem
open Idealize.ShloMosaic.Pipeline (Dat)

namespace Cert.KernelIdeal.Region

open Cert.KernelIdeal Cert.KernelIdeal.Gen Cert.KernelIdeal.Accum

variable {F : FTy → Type} [FloatOps F]
variable (m : (ℓ : Loc nD τ sig) → Buf (Elt F) ℓ)

/-- The grid's last point. -/
theorem last_lt : 31 < cfg0.N := by rw [show cfg0.N = 32 from N_0]; decide
abbrev tLast : Fin cfg0.N := ⟨31, last_lt⟩

/-- The column sums the call returns: the first block after the last point. -/
abbrev colsumArr (c : Dev nD) : Buf (Elt F) ((c : Thread nD τ).loc main_v0_0) := sums m c 31 last_lt
/-- The column sums of squares the call returns: the second block after the last point. -/
abbrev colsumsqArr (c : Dev nD) : Buf (Elt F) ((c : Thread nD τ).loc main_v0_1) := sumsqs m c 31 last_lt

/-- The one write-back of the first result, at the last point, writes the column-sum block over the whole array. -/
theorem flushed_sum (c : Dev nD) (t : Fin cfg0.N) (hf : (cfg0.win 1).flush t = true) :
    (dats m 0 c).flushed 1 t = ((cfg0.win 1).blk t).view.read (Elt F) (colsumArr m c) := by
  have hN : cfg0.N = 32 := N_0
  have h31 : t.val = 31 := by have := (flush0_1 t).mp hf; have := t.isLt; omega
  obtain rfl : t = tLast := Fin.ext h31
  show (cfg0.win 1).cut (grid0.coords tLast) ((dats m 0 c).after 1 tLast) = _
  rw [after0_1, outsAt_eq]
  have hz' : (fun a => win0_1.index tLast a * main_v0_0.ty.shape.size a) = fun _ => 0 :=
    funext fun a => by fin_cases a <;> decide +kernel
  exact (Memref.read_access_unit_zero (Elt F) main_v0_0 hz' (fun a => by rw [congrFun hz' a]; simp) (colsumArr m c)).symm

/-- The one write-back of the second result, at the last point, writes the sum-of-squares block over the whole array. -/
theorem flushed_sumsq (c : Dev nD) (t : Fin cfg0.N) (hf : (cfg0.win 2).flush t = true) :
    (dats m 0 c).flushed 2 t = ((cfg0.win 2).blk t).view.read (Elt F) (colsumsqArr m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, outsAt_eq]
  have hz' : (fun a => win0_2.index tLast a * main_v0_1.ty.shape.size a) = fun _ => 0 :=
    funext fun a => by fin_cases a <;> decide +kernel
  exact (Memref.read_access_unit_zero (Elt F) main_v0_1 hz' (fun a => by rw [congrFun hz' a]; simp) (colsumsqArr m c)).symm

/-- So the first result array ends holding the column sums: the last point's block covers it. -/
theorem final_sum (c : Dev nD) : (dats m 0 c).arrAt 1 cfg0.N = colsumArr m c :=
  (dats m 0 c).arrAt_eq_of_cover 1 (colsumArr m c) (flushed_sum m c) fun i =>
    ⟨tLast, (flush0_1 tLast).mpr rfl, by
      show i ∈ ((View.whole main_v0_0).slice (win0_1.rect tLast)).set
      rw [View.set_slice_whole, Rect.mem_set_unit]
      intro a
      have h0 : (i 0 : Nat) < 1 := (i 0).isLt
      have h1 : (i 1 : Nat) < 10000 := (i 1).isLt
      match a with
      | ⟨0, _⟩ =>
        show win0_1.index tLast 0 * win0_1.size 0 ≤ (i 0 : Nat) ∧ (i 0 : Nat) < win0_1.index tLast 0 * win0_1.size 0 + win0_1.xsize (grid0.coords tLast) 0
        rw [show win0_1.index tLast 0 * win0_1.size 0 = 0 from by decide +kernel, show win0_1.xsize (grid0.coords tLast) 0 = 1 from by decide +kernel]; omega
      | ⟨1, _⟩ =>
        show win0_1.index tLast 1 * win0_1.size 1 ≤ (i 1 : Nat) ∧ (i 1 : Nat) < win0_1.index tLast 1 * win0_1.size 1 + win0_1.xsize (grid0.coords tLast) 1
        rw [show win0_1.index tLast 1 * win0_1.size 1 = 0 from by decide +kernel, show win0_1.xsize (grid0.coords tLast) 1 = 10000 from by decide +kernel]; omega⟩

/-- And the second the column sums of squares. -/
theorem final_sumsq (c : Dev nD) : (dats m 0 c).arrAt 2 cfg0.N = colsumsqArr m c :=
  (dats m 0 c).arrAt_eq_of_cover 2 (colsumsqArr m c) (flushed_sumsq m c) fun i =>
    ⟨tLast, (flush0_2 tLast).mpr rfl, by
      show i ∈ ((View.whole main_v0_1).slice (win0_2.rect tLast)).set
      rw [View.set_slice_whole, Rect.mem_set_unit]
      intro a
      have h0 : (i 0 : Nat) < 1 := (i 0).isLt
      have h1 : (i 1 : Nat) < 10000 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 10000 from by decide +kernel]; omega⟩

end Cert.KernelIdeal.Region

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibRank1Sum.lean ====
/-
  A sum over the indices of a rank-1 array is the sum over its one coordinate.
-/
import Idealize.ShloMosaic.Lib.ValueIdx

namespace Cert.Lib.Rank1Sum

open Idealize.ShloMosaic Idealize.ShloMosaic.ValueIdx

/-- A rank-1 index is its one coordinate. -/
def idxEquiv1 {n : ℕ} : (⟨1, ![n]⟩ : Shape).Idx ≃ Fin n where
  toFun i := i 0
  invFun a := ix1 a
  left_inv i := (eq_ix1 i).symm
  right_inv _ := rfl

/-- … so a sum over the indices of an `[n]` array is the sum over `Fin n` of the entries. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

end Cert.Lib.Rank1Sum
-- ==== Proof.KernelTail.lean ====
/-
  The host operations after the kernel call, as one function of the two returned arrays and the embedding.

  From the column sums `cs`, the column sums of squares `csq` (both [1,10000]) and the embedding `W` [10000,64]:
      t f  = ∑ k, cs k * W k f            (a [1,10000] × [10000,64] product, flattened to [64])
      A    = 0 + ∑ f, t f * t f
      rs k = 0 + ∑ f, W k f * W k f       (the squared embedding summed along each row)
      B    = 0 + ∑ k, csq k * rs k
      result = ½ · (A − B),
  every float sum starting from the float zero. The first half of this module reads the program's result buffer
  as that function of what the call returned; the second reads the function at its one index over the extended reals.
-/
import proofs.«107223_j30631706755974_2_alg».proof.Proof.KernelRegion
import proofs.«107223_j30631706755974_2_alg».proof.Proof.LibPlainMatmul
import proofs.«107223_j30631706755974_2_alg».proof.Proof.LibRank1Sum
import Idealize.ShloMosaic.Lib.StableHlo.Run
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.KernelIdeal.Region Idealize.ShloMosaic.ValueIdx

section AnyValues

variable {F : FTy → Type} [FloatOps F]

/-- The operations after the call, composed. -/
def tail (cs csq : FVec F S1x10000 .f32) (W : FVec F S10000x64 .f32) : FVec F S_ .f32 :=
  mulf (constant (F := F) S_ .f32 0x3F000000#32)
    (subf
      (Host.reduceAdd
        (mulf (shapeCast S64 (Host.dotGeneral dot_S1x10000_S10000x64_S1x64_1_0_0_1_n_n none cs W) shapeCasts_S1x64_S64)
          (shapeCast S64 (Host.dotGeneral dot_S1x10000_S10000x64_S1x64_1_0_0_1_n_n none cs W) shapeCasts_S1x64_S64))
        (constant (F := F) S_ .f32 0x00000000#32) reducesTo_S64_S_d0 h_S_)
      (Host.reduceAdd
        (mulf (shapeCast S10000 csq shapeCasts_S1x10000_S10000)
          (Host.reduceAdd (mulf W W) (constant (F := F) S_ .f32 0x00000000#32) reducesTo_S10000x64_S10000_d1 h_S_))
        (constant (F := F) S_ .f32 0x00000000#32) reducesTo_S10000_S_d0 h_S_))

variable (m : (ℓ : Loc nD τ sig) → Buf (Elt F) ℓ)

/-- The program's result buffer after the tail: the tail's function of the two arrays the call returned and of the
    embedding as launched. -/
theorem result_eq (c : Dev nD) :
    Pipeline.afterTail₀ cfgs (dats m) 0 (V0 m) [hostOps1] c main_v11
      = tail (colsumArr m c) (colsumsqArr m c) (m ((c : Thread nD τ).loc main_arg1)) := by
  have e1 : Pipeline.withArrays (cfgs 0).spec c (V0 m c) (fun w => (dats m 0 c).arrAt w (cfgs 0).N) (Proc.devRef .tc main_v0_0)
      = colsumArr m c := (Pipeline.withArrays_arr spec0 launch0.win.arr_inj c _ _ 1).trans (final_sum m c)
  have e2 : Pipeline.withArrays (cfgs 0).spec c (V0 m c) (fun w => (dats m 0 c).arrAt w (cfgs 0).N) (Proc.devRef .tc main_v0_1)
      = colsumsqArr m c := (Pipeline.withArrays_arr spec0 launch0.win.arr_inj c _ _ 2).trans (final_sumsq m c)
  have e3 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  show StableHlo.after hostOps1 _ (Proc.devRef .tc main_v11) = _
  after_results
  rw [e1, e2, e3]
  rfl

end AnyValues

/-! ## The tail at its one index, over the extended reals -/

open Cert.Lib.Rank1Sum

/-- A float sum of a [64] array from the float zero. -/
theorem total64 (y : FVec Ideal S64 .f32) (i : S_.Idx) :
    Host.reduceAdd y (constant (F := Ideal) S_ .f32 0x00000000#32) reducesTo_S64_S_d0 h_S_ i = 0 + ∑ f : Fin 64, y (ix1 f) := by
  simp only [Host.reduceAdd, Ideal.hostReduceAdd_def]
  refine (Ideal.hostReduceAdd_total reducesTo_S64_S_d0 (fun b => b.elim0) y _ i).trans ?_
  exact congrArg₂ (· + ·) Ideal.ofBits_zero_f32 (sum_idx1 y)

/-- A float sum of a [10000] array from the float zero. -/
theorem total10000 (y : FVec Ideal S10000 .f32) (i : S_.Idx) :
    Host.reduceAdd y (constant (F := Ideal) S_ .f32 0x00000000#32) reducesTo_S10000_S_d0 h_S_ i = 0 + ∑ k : Fin 10000, y (ix1 k) := by
  simp only [Host.reduceAdd, Ideal.hostReduceAdd_def]
  refine (Ideal.hostReduceAdd_total reducesTo_S10000_S_d0 (fun b => b.elim0) y _ i).trans ?_
  exact congrArg₂ (· + ·) Ideal.ofBits_zero_f32 (sum_idx1 y)

/-- The squared embedding summed along row `k`, from the float zero. -/
theorem row_squares (W : FVec Ideal S10000x64 .f32) (k : Fin 10000) :
    Host.reduceAdd (mulf W W) (constant (F := Ideal) S_ .f32 0x00000000#32) reducesTo_S10000x64_S10000_d1 h_S_ (ix1 k)
      = 0 + ∑ f : Fin 64, W (ix2 k f) * W (ix2 k f) := by
  simp only [Host.reduceAdd, Ideal.hostReduceAdd_def]
  refine (Ideal.hostReduceAdd_single reducesTo_S10000x64_S10000_d1 (by decide) (mulf W W) _ (ix1 k)).trans ?_
  refine congrArg₂ (· + ·) Ideal.ofBits_zero_f32 (Finset.sum_congr rfl fun f _ => ?_)
  have e : (by decide : S10000x64.Reduces [1] S10000).lift (ix1 k) f = ix2 k f :=
    funext fun a => Fin.ext (by match a with | ⟨0, _⟩ => rfl | ⟨1, _⟩ => rfl)
  rw [e]
  rfl

/-- Entry `f` of the column sums times the embedding, flattened: `∑ k, cs k * W k f`. -/
theorem product_entry (cs : FVec Ideal S1x10000 .f32) (W : FVec Ideal S10000x64 .f32) (f : Fin 64) :
    shapeCast S64 (Host.dotGeneral dot_S1x10000_S10000x64_S1x64_1_0_0_1_n_n none cs W) shapeCasts_S1x64_S64 (ix1 f)
      = ∑ k : Fin 10000, cs (ix2 0 k) * W (ix2 k f) := by
  refine (shapeCast_1a_a_apply _ shapeCasts_S1x64_S64 f).trans ?_
  simp only [Host.dotGeneral]
  exact Cert.PlainMatmul.dotGeneral_apply dot_S1x10000_S10000x64_S1x64_1_0_0_1_n_n_wf none _ cs W 0 f

/-- The tail at its one index. -/
theorem tail_apply (cs csq : FVec Ideal S1x10000 .f32) (W : FVec Ideal S10000x64 .f32) (i : S_.Idx) :
    tail (F := Ideal) cs csq W i
      = Ideal.ofBits .f32 0x3F000000#32 *
        ((0 + ∑ f : Fin 64, (∑ k : Fin 10000, cs (ix2 0 k) * W (ix2 k f)) * (∑ k : Fin 10000, cs (ix2 0 k) * W (ix2 k f)))
          - (0 + ∑ k : Fin 10000, csq (ix2 0 k) * (0 + ∑ f : Fin 64, W (ix2 k f) * W (ix2 k f)))) := by
  unfold tail
  refine (mulf_apply _ _ i).trans ?_
  refine congrArg₂ (· * ·) rfl ?_
  refine (subf_apply _ _ i).trans ?_
  refine congrArg₂ (· - ·) ?_ ?_
  · refine (total64 _ i).trans (congrArg (0 + ·) (Finset.sum_congr rfl fun f _ => ?_))
    refine (mulf_apply _ _ _).trans ?_
    rw [product_entry]
  · refine (total10000 _ i).trans (congrArg (0 + ·) (Finset.sum_congr rfl fun k _ => ?_))
    refine (mulf_apply _ _ _).trans ?_
    exact congrArg₂ (· * ·) (shapeCast_1a_a_apply csq shapeCasts_S1x10000_S10000 k) (row_squares W k)

end Cert.KernelIdeal.Tail

end
-- ==== Proof.KernelRun.lean ====
/-
  The kernel program's run, read: every weakly fair execution terminates with the result buffer at the tail's function
  of the two arrays the call returns (the column sums and the column sums of squares after the last grid point) and of
  the embedding, and with both arguments unchanged.
-/
import proofs.«107223_j30631706755974_2_alg».proof.Proof.KernelTail

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Region Cert.KernelIdeal.Tail

variable {F : FTy → Type} [FloatOps F]
variable (m : (ℓ : Loc nD τ sig) → Buf (Elt F) ℓ) (ρ : Dev nD → PrngReg)

/-- The result the program ends with, on core `c`. -/
abbrev result (c : Dev nD) : Buf (Elt F) ((c : Thread nD τ).loc main_v11) :=
  tail (colsumArr m c) (colsumsqArr m c) (m ((c : Thread nD τ).loc main_arg1))

theorem run : θ_run defs (onTc (τ := τ) (main (F := F))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v11 (Pipeline.mem_restRefs_of main_v11 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Run

end
-- ==== Proof.RefValue.lean ====
/-
  The reference's result at its one index, over the extended reals.

  With `X` the [4096,10000] input and `W` the [10000,64] embedding the reference computes
      t f = 0 + ∑ b, ∑ k, X b k * W k f          (the product summed over the batch)
      A   = 0 + ∑ f, t f * t f
      B   = 0 + ∑ b, ∑ f, ∑ k, (X b k)² * (W k f)²   (the product of the squares summed over batch and latent axis)
      result = ½ · (A − B),
  every float sum starting from the float zero: read off the reference's operations one at a time.
-/
import proofs.«107223_j30631706755974_2_alg».proof.Proof.Gen.ReferenceIdeal.Read
import proofs.«107223_j30631706755974_2_alg».proof.Proof.LibRank1Sum
import Idealize.ShloMosaic.Lib.ValueIdx
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Read Idealize.ShloMosaic.ValueIdx Cert.Lib.Rank1Sum

/-- Entry `f` of the product summed over the batch. -/
theorem batch_product (X : FVec Ideal S4096x10000 .f32) (W : FVec Ideal S10000x64 .f32) (f : Fin 64) :
    val_main_v1 (F := Ideal) X W (ix1 f) = 0 + ∑ b : Fin 4096, ∑ k : Fin 10000, X (ix2 b k) * W (ix2 k f) := by
  rw [val_main_v1_apply, val_main_cst_apply]
  refine congrArg₂ (· + ·) Ideal.ofBits_zero_f32 (Finset.sum_congr rfl fun b _ => ?_)
  rw [val_main_v0_apply]
  refine Finset.sum_congr rfl fun k _ => ?_
  have el : lidx_main_v0 (idx_main_v1 (ix1 f) b) k = ix2 b k :=
    funext fun a => Fin.ext (by match a with | ⟨0, _⟩ => rfl | ⟨1, _⟩ => rfl)
  have er : ridx_main_v0 (idx_main_v1 (ix1 f) b) k = ix2 k f :=
    funext fun a => Fin.ext (by match a with | ⟨0, _⟩ => rfl | ⟨1, _⟩ => rfl)
  rw [el, er]

/-- The product of the squares, summed over every entry. -/
theorem squares_total (X : FVec Ideal S4096x10000 .f32) (W : FVec Ideal S10000x64 .f32) (i : S_.Idx) :
    val_main_v5 (F := Ideal) X W i
      = 0 + ∑ b : Fin 4096, ∑ f : Fin 64, ∑ k : Fin 10000, (X (ix2 b k) * X (ix2 b k)) * (W (ix2 k f) * W (ix2 k f)) := by
  rw [val_main_v5_apply, val_main_cst_0_apply, sum_idx2]
  refine congrArg₂ (· + ·) Ideal.ofBits_zero_f32 (Finset.sum_congr rfl fun b _ => Finset.sum_congr rfl fun f _ => ?_)
  rw [val_main_v4_apply]
  refine Finset.sum_congr rfl fun k _ => ?_
  rw [val_main_v2_apply, val_main_v3_apply]
  have el : lidx_main_v4 (ix2 b f) k = ix2 b k :=
    funext fun a => Fin.ext (by match a with | ⟨0, _⟩ => rfl | ⟨1, _⟩ => rfl)
  have er : ridx_main_v4 (ix2 b f) k = ix2 k f :=
    funext fun a => Fin.ext (by match a with | ⟨0, _⟩ => rfl | ⟨1, _⟩ => rfl)
  rw [el, er]
  rfl

/-- The reference's result at its one index. -/
theorem ref_apply (X : FVec Ideal S4096x10000 .f32) (W : FVec Ideal S10000x64 .f32) (i : S_.Idx) :
    val_main_v9 (F := Ideal) X W i
      = Ideal.ofBits .f32 0x3F000000#32 *
        ((0 + ∑ f : Fin 64, (0 + ∑ b : Fin 4096, ∑ k : Fin 10000, X (ix2 b k) * W (ix2 k f))
              * (0 + ∑ b : Fin 4096, ∑ k : Fin 10000, X (ix2 b k) * W (ix2 k f)))
          - (0 + ∑ b : Fin 4096, ∑ f : Fin 64, ∑ k : Fin 10000, (X (ix2 b k) * X (ix2 b k)) * (W (ix2 k f) * W (ix2 k f)))) := by
  rw [val_main_v9_apply, val_main_cst_2_apply, val_main_v8_apply, val_main_v7_apply, val_main_cst_1_apply,
    squares_total, sum_idx1]
  simp only [Ideal.mulf_def, Ideal.subf_def, Ideal.ofBits_def]
  refine congrArg (Ideal.ofBits .f32 0x3F000000#32 * ·) (congrArg (· - _) ?_)
  refine congrArg₂ (· + ·) Ideal.ofBits_zero_f32 (Finset.sum_congr rfl fun f _ => ?_)
  rw [val_main_v6_apply, batch_product]
  rfl

end Cert.ReferenceIdeal.RefValue

end
-- ==== Proof.Spec.lean ====
/-
  The two laws that join the kernel's arrangement of the sums to the reference's, over finite (real) entries.

  Write `x b k` for the [4096,10000] input and `v k f` for the [10000,64] embedding. The reference contracts first and
  sums over the batch afterwards,
      t f = ∑ b, ∑ k, x b k * v k f        q = ∑ b, ∑ f, ∑ k, (x b k)² * (v k f)²,
  the kernel sums over the batch first (its column sums `∑ b, x b k` and `∑ b, (x b k)²`) and contracts afterwards,
      t f = ∑ k, (∑ b, x b k) * v k f      q = ∑ k, (∑ b, (x b k)²) * (∑ f, (v k f)²).
  Both are the distributive law and a change of the order of summation. Over the extended reals distributivity
  fails at the infinities, so the laws are stated for entries that are real numbers: each side is then the
  coercion of a real sum, and the identity is one between reals. (Each float sum starts from the float zero, hence
  the `0 +` in front of the kernel's and the reference's sums.)
-/
import Mathlib

namespace Cert.FmSpec

open Finset

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Summing over the batch before contracting: `∑ k, (∑ b, x b k) * w k = ∑ b, ∑ k, x b k * w k`, on the reals. -/
theorem contract_real {ι κ : Type*} [Fintype ι] [Fintype κ] (x : ι → κ → ℝ) (w : κ → ℝ) :
    ∑ k, (∑ b, x b k) * w k = ∑ b, ∑ k, x b k * w k := by
  simp_rw [Finset.sum_mul]
  exact Finset.sum_comm

/-- The same for the squares against the squared rows' sums:
    `∑ k, (∑ b, (x b k)²) * (∑ f, (v k f)²) = ∑ b, ∑ f, ∑ k, (x b k)² * (v k f)²`, on the reals. -/
theorem contract_sq_real {ι κ μ : Type*} [Fintype ι] [Fintype κ] [Fintype μ] (x : ι → κ → ℝ) (v : κ → μ → ℝ) :
    ∑ k, (∑ b, x b k * x b k) * (∑ f, v k f * v k f)
      = ∑ b, ∑ f, ∑ k, (x b k * x b k) * (v k f * v k f) := by
  simp_rw [Finset.sum_mul_sum]
  rw [Finset.sum_comm]
  exact Finset.sum_congr rfl fun b _ => Finset.sum_comm

/-- The contraction law on extended reals that are real numbers, each float sum started from zero: the kernel's
    `∑ k, colsum k * w k` is the reference's `0 + ∑ b, ∑ k, x b k * w k`. -/
theorem contract {ι κ : Type*} [Fintype ι] [Fintype κ] (x : ι → κ → ℝ) (w : κ → ℝ) :
    ∑ k, (0 + ∑ b, (x b k : EReal)) * (w k : EReal) = 0 + ∑ b, ∑ k, (x b k : EReal) * (w k : EReal) := by
  simp only [zero_add, ← EReal.coe_mul, ← coe_sum]
  exact congrArg _ (contract_real x w)

/-- The law for the squares on extended reals that are real numbers, each float sum started from zero. -/
theorem contract_sq {ι κ μ : Type*} [Fintype ι] [Fintype κ] [Fintype μ] (x : ι → κ → ℝ) (v : κ → μ → ℝ) :
    ∑ k, (0 + ∑ b, (x b k : EReal) * (x b k : EReal)) * (0 + ∑ f, (v k f : EReal) * (v k f : EReal))
      = ∑ b, ∑ f, ∑ k, ((x b k : EReal) * (x b k : EReal)) * ((v k f : EReal) * (v k f : EReal)) := by
  simp only [zero_add, ← EReal.coe_mul, ← coe_sum]
  exact congrArg _ (contract_sq_real x v)

end Cert.FmSpec
-- ==== Proof.Bridge.lean ====
/-
  The kernel's result and the reference's are one number when every entry of the inputs is a real number.

  Both are ½ · (A − B). The kernel's `A` is built from `∑ k, colsum k * W k f` with `colsum k = 0 + ∑ b, X b k`, the
  reference's from `0 + ∑ b, ∑ k, X b k * W k f`; the kernel's `B` is `∑ k, colsumsq k * rowsq k` with
  `colsumsq k = 0 + ∑ b, (X b k)²` and `rowsq k = 0 + ∑ f, (W k f)²`, the reference's `∑ b, ∑ f, ∑ k, (X b k)² (W k f)²`.
  On real entries these agree by the two contraction laws; the outer `½ · (· − ·)` is the same on both sides and is
  never opened.
-/
import proofs.«107223_j30631706755974_2_alg».proof.Proof.KernelTail
import proofs.«107223_j30631706755974_2_alg».proof.Proof.RefValue
import proofs.«107223_j30631706755974_2_alg».proof.Proof.Spec

noncomputable section

open Idealize.ShloMosaic Idealize.ShloMosaic.TcCoe Idealize.SL.Sem

namespace Cert.FmBridge

open Idealize.ShloMosaic.ValueIdx

/-- For inputs whose entries are real numbers, the tail applied to the column sums and the column sums of squares is
    the reference's result. -/
theorem values_agree (X : FVec Ideal (⟨2, ![4096, 10000]⟩ : Shape) .f32) (W : FVec Ideal (⟨2, ![10000, 64]⟩ : Shape) .f32)
    (hX : ∀ i, ∃ r : ℝ, X i = (r : EReal)) (hW : ∀ i, ∃ r : ℝ, W i = (r : EReal))
    (cs csq : FVec Ideal (⟨2, ![1, 10000]⟩ : Shape) .f32)
    (hcs : ∀ k : Fin 10000, cs (ix2 0 k) = 0 + ∑ b : Fin 4096, X (ix2 b k))
    (hcsq : ∀ k : Fin 10000, csq (ix2 0 k) = 0 + ∑ b : Fin 4096, X (ix2 b k) * X (ix2 b k)) :
    Cert.KernelIdeal.Tail.tail (F := Ideal) cs csq W = Cert.ReferenceIdeal.Read.val_main_v9 (F := Ideal) X W := by
  funext i
  rw [Cert.KernelIdeal.Tail.tail_apply, Cert.ReferenceIdeal.RefValue.ref_apply]
  choose x hx using hX
  choose w hw using hW
  refine congrArg (_ * ·) (congrArg₂ (· - ·) ?_ ?_)
  · refine congrArg (0 + ·) (Finset.sum_congr rfl fun f _ => ?_)
    have e : ∑ k : Fin 10000, cs (ix2 0 k) * W (ix2 k f)
        = 0 + ∑ b : Fin 4096, ∑ k : Fin 10000, X (ix2 b k) * W (ix2 k f) := by
      simp only [hcs, hx, hw]
      exact Cert.FmSpec.contract (fun b k => x (ix2 b k)) (fun k => w (ix2 k f))
    rw [e]
  · refine congrArg (0 + ·) ?_
    simp only [hcsq, hx, hw]
    exact Cert.FmSpec.contract_sq (fun b k => x (ix2 b k)) (fun k f => w (ix2 k f))

end Cert.FmBridge

end
-- ==== Proof.Finite.lean ====
/-
  The precondition read back: every entry of both inputs is a real number.

  The precondition says, of each input, that `|x| < +∞` holds at every entry (a conjunction over all entries, and
  the conjunction of the two). Over the extended reals `|x|` is `max x (-x)`, which is `+∞` at both infinities, so
  an entry satisfying it is neither: it is a real number.
-/
import proofs.«107223_j30631706755974_2_alg».proof.Pre_finite_inputs
import Idealize.ShloMosaic.Lib.ReduceAll
import Idealize.ShloMosaic.Lib.ValueIdx
import Idealize.ShloMosaic.PureOps.Ideal

noncomputable section

namespace Cert.FmFinite

open Idealize.ShloMosaic Cert.Pre_finite_inputs

/-- An extended real whose absolute value is below `+∞` is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

variable [Cert.Pre_finite_inputs.Facts]

/-- Under the precondition every entry of the input matrix and of the embedding is a real number. -/
theorem reals_of_pre (X : FVec Ideal S4096x10000 .f32) (W : FVec Ideal S10000x64 .f32)
    (h : fn (F := Ideal) X W = fun _ => 1#1) :
    (∀ i, ∃ r : ℝ, X i = (r : EReal)) ∧ (∀ i, ∃ r : ℝ, W i = (r : EReal)) := by
  haveI : Subsingleton S_.Idx := ⟨fun a b => funext fun d => d.elim0⟩
  have h0 := congrFun h ValueIdx.ix0
  dsimp only [fn] at h0
  obtain ⟨hx, hw⟩ := IntOp.andi_eq_one.1 h0
  exact ⟨fun i => real_of_abs_lt _ (Host.reduce_andi_all _ _ _ _ _ hx i),
    fun i => real_of_abs_lt _ (Host.reduce_andi_all _ _ _ _ _ hw i)⟩

end Cert.FmFinite

end
-- ==== Proof.lean ====
/-
  The certificate's five claims.

  The kernel computes, in one streaming pass over the [4096,10000] input `X`, the column sums `∑ b, X b k` and the
  column sums of squares `∑ b, (X b k)²` (32 grid points of 128 rows each, accumulated in two [1,10000] blocks), and
  then on the host  ½ · (∑ f (∑ k colsum k · W k f)² − ∑ k colsumsq k · ∑ f (W k f)²)  with `W` the [10000,64] embedding.
  The reference computes  ½ · (∑ f (∑ b ∑ k X b k · W k f)² − ∑ b ∑ f ∑ k (X b k)² (W k f)²).
  Over the extended reals the two agree when every entry is a real number — which the precondition says — by
  distributivity and a change of the order of summation; a sum taken block by block is the sum taken whole in any
  commutative monoid.

  The three frames are the generated runs (the reference's with its result dropped); the idealization rewrote nothing;
  the algebraic claim puts the kernel's run (the result buffer at the host tail's function of what the call returns)
  beside the reference's run and joins the two values.
-/
import proofs.«107223_j30631706755974_2_alg».proof.Defs
import proofs.«107223_j30631706755974_2_alg».proof.Proof.Gen.Kernel
import proofs.«107223_j30631706755974_2_alg».proof.Proof.Gen.Kernel.Frame
import proofs.«107223_j30631706755974_2_alg».proof.Proof.Gen.KernelIdeal
import proofs.«107223_j30631706755974_2_alg».proof.Proof.Gen.KernelIdeal.Frame
import proofs.«107223_j30631706755974_2_alg».proof.Proof.Gen.ReferenceIdeal
import proofs.«107223_j30631706755974_2_alg».proof.Proof.Gen.ReferenceIdeal.Run
import proofs.«107223_j30631706755974_2_alg».proof.Proof.Gen.ReferenceIdeal.Read
import proofs.«107223_j30631706755974_2_alg».proof.Proof.Gen.Pre_finite_inputs
import proofs.«107223_j30631706755974_2_alg».proof.Proof.KernelRun
import proofs.«107223_j30631706755974_2_alg».proof.Proof.Bridge
import proofs.«107223_j30631706755974_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with ½ · (A − B) of inputs that agree; under the precondition every entry is a real number, and
    then the kernel's `A`, `B` (from the column sums after the last grid point) are the reference's. -/
theorem algebraic : Cert.algebraic_KernelIdeal_ReferenceIdeal := by
  intro m ρ m' ρ' hpre hagree
  refine ⟨fun c => Cert.KernelIdeal.Run.result m c, Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2]
  obtain ⟨hX, hW⟩ := Cert.FmFinite.reals_of_pre _ _ (hpre c)
  exact (Cert.FmBridge.values_agree _ _ hX hW _ _
    (fun k => Cert.KernelIdeal.Accum.sums_last m c Cert.KernelIdeal.Region.last_lt 0 k)
    (fun k => Cert.KernelIdeal.Accum.sumsqs_last m c Cert.KernelIdeal.Region.last_lt 0 k)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
